-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x50176 : Shape := ⟨2, ![256, 50176]⟩
abbrev S_ : Shape := ⟨0, ![]⟩

class Facts : Prop where
  bcast_S_S256x50176 : S_.BroadcastsInDim S256x50176 (![] : Fin 0 → Fin S256x50176.rank)
  reducesTo_S256x50176_S_d0_1 : S256x50176.ReducesTo [0, 1] S_
  h_S_ : 0 < S_.numel

variable [Facts]

def fn {F : FTy → Type} [FloatOps F] (main_arg0 : FVec F S256x50176 .f32) (main_arg1 : FVec F S256x50176 .f32) : IVec S_ 1 :=
  let main_v0 : FVec F S256x50176 .f32 := Host.absf main_arg0
  let main_cst : FVec F S_ .f32 := constant S_ .f32 0x7F800000#32
  let main_v1 : FVec F S256x50176 .f32 := broadcastInDim S256x50176 ![] bcast_S_S256x50176 main_cst
  let main_v2 : IVec S256x50176 1 := cmpf .olt main_v0 main_v1
  let main_c : IVec S_ 1 := constantI S_ 1 1#1
  let main_v3 : IVec S_ 1 := (fun x v => Host.reduce IntOp.andi x v reducesTo_S256x50176_S_d0_1 h_S_) main_v2 main_c
  let main_v4 : FVec F S256x50176 .f32 := Host.absf main_arg1
  let main_cst_0 : FVec F S_ .f32 := constant S_ .f32 0x7F800000#32
  let main_v5 : FVec F S256x50176 .f32 := broadcastInDim S256x50176 ![] bcast_S_S256x50176 main_cst_0
  let main_v6 : IVec S256x50176 1 := cmpf .olt main_v4 main_v5
  let main_c_1 : IVec S_ 1 := constantI S_ 1 1#1
  let main_v7 : IVec S_ 1 := (fun x v => Host.reduce IntOp.andi x v reducesTo_S256x50176_S_d0_1 h_S_) main_v6 main_c_1
  let main_v8 : IVec S_ 1 := andi main_v3 main_v7
  main_v8
-- ==== Kernel.lean ====
abbrev S256x50176 : Shape := ⟨2, ![256, 50176]⟩
abbrev S1x50176 : Shape := ⟨2, ![1, 50176]⟩
abbrev S_ : Shape := ⟨0, ![]⟩
abbrev S256x3584 : Shape := ⟨2, ![256, 3584]⟩
abbrev S1x3584 : Shape := ⟨2, ![1, 3584]⟩
abbrev S3584 : Shape := ⟨1, ![3584]⟩

abbrev nBuf : Space → Nat
  | .hbm => 7
  | .vmem => 6
  | .smem => 0
  | _ => 0

abbrev bufTy : (tb : Table) → Fin (tcTables nBuf tb) → BufTy
  | .hbm, ⟨0, _⟩ => ⟨S256x50176, .f32⟩
  | .hbm, ⟨1, _⟩ => ⟨S256x50176, .f32⟩
  | .hbm, ⟨2, _⟩ => ⟨S1x50176, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S256x3584, .f32⟩
  | .local _ .vmem, ⟨1, _⟩ => ⟨S256x3584, .f32⟩
  | .local _ .vmem, ⟨2, _⟩ => ⟨S256x3584, .f32⟩
  | .local _ .vmem, ⟨3, _⟩ => ⟨S256x3584, .f32⟩
  | .local _ .vmem, ⟨4, _⟩ => ⟨S1x3584, .f32⟩
  | .local _ .vmem, ⟨5, _⟩ => ⟨S1x3584, .f32⟩
  | _, _ => ⟨S256x50176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_cst_0 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3584 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S1x50176_S_d0_1 : S1x50176.ReducesTo [0, 1] S_
  h_S_ : 0 < S_.numel
  inb_S256x3584_S256x3584_0_0 : ∀ a, (![0, 0] : Fin 2 → Nat) a + S256x3584.size a ≤ S256x3584.size a
  h_S256x3584 : 0 < S256x3584.numel
  natLt_1_32 : 1 < 32
  reduces_S256x3584_S3584 : S256x3584.Reduces [0] S3584
  shapeCasts_S3584_S1x3584 : S3584.ShapeCasts S1x3584
  inb_S1x3584_S1x3584_0_0 : ∀ a, (![0, 0] : Fin 2 → Nat) a + S1x3584.size a ≤ S1x3584.size a
  h_S1x3584 : 0 < S1x3584.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3584.size a ≤ S256x50176.size a
  hwx0_0 : ∀ i : grid0.Coords, EltTy.bits .f32 = 32 ∨ (Rect.block (s := S256x50176) S256x3584.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x3584.size a ≤ S256x50176.size a
  hwx0_1 : ∀ i : grid0.Coords, EltTy.bits .f32 = 32 ∨ (Rect.block (s := S256x50176) S256x3584.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3584.size a ≤ S1x50176.size a
  hwx0_2 : ∀ i : grid0.Coords, EltTy.bits .f32 = 32 ∨ (Rect.block (s := S1x50176) S1x3584.size (cc0_transform_2 i) (hinb0_2 i)).WholeWords (EltTy.packing .f32)

variable [Facts₀]

abbrev win0_0 : Pipeline.Window sig grid0 :=
  Pipeline.Window.ofSpec (Memref.whole main_arg0) S256x3584.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x3584.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x3584.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x50176 : Shape := ⟨2, ![256, 50176]⟩
abbrev S_ : Shape := ⟨0, ![]⟩
abbrev S50176 : Shape := ⟨1, ![50176]⟩

abbrev nBuf : Space → Nat
  | .hbm => 28
  | .vmem => 0
  | .smem => 0
  | _ => 0

abbrev bufTy : (tb : Table) → Fin (tcTables nBuf tb) → BufTy
  | .hbm, ⟨0, _⟩ => ⟨S256x50176, .f32⟩
  | .hbm, ⟨1, _⟩ => ⟨S256x50176, .f32⟩
  | .hbm, ⟨2, _⟩ => ⟨S256x50176, .f32⟩
  | .hbm, ⟨3, _⟩ => ⟨S256x50176, .f32⟩
  | .hbm, ⟨4, _⟩ => ⟨S_, .f32⟩
  | .hbm, ⟨5, _⟩ => ⟨S256x50176, .f32⟩
  | .hbm, ⟨6, _⟩ => ⟨S256x50176, .i1⟩
  | .hbm, ⟨7, _⟩ => ⟨S256x50176, .f32⟩
  | .hbm, ⟨8, _⟩ => ⟨S256x50176, .f32⟩
  | .hbm, ⟨9, _⟩ => ⟨S_, .f32⟩
  | .hbm, ⟨10, _⟩ => ⟨S50176, .f32⟩
  | .hbm, ⟨11, _⟩ => ⟨S_, .f32⟩
  | .hbm, ⟨12, _⟩ => ⟨S50176, .f32⟩
  | .hbm, ⟨13, _⟩ => ⟨S_, .f32⟩
  | .hbm, ⟨14, _⟩ => ⟨S50176, .f32⟩
  | .hbm, ⟨15, _⟩ => ⟨S50176, .i1⟩
  | .hbm, ⟨16, _⟩ => ⟨S_, .f32⟩
  | .hbm, ⟨17, _⟩ => ⟨S50176, .f32⟩
  | .hbm, ⟨18, _⟩ => ⟨S50176, .f32⟩
  | .hbm, ⟨19, _⟩ => ⟨S50176, .f32⟩
  | .hbm, ⟨20, _⟩ => ⟨S_, .f32⟩
  | .hbm, ⟨21, _⟩ => ⟨S_, .f32⟩
  | .hbm, ⟨22, _⟩ => ⟨S50176, .f32⟩
  | .hbm, ⟨23, _⟩ => ⟨S50176, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S256x50176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_call0_v0 : Ref sig .tc := ⟨.hbm, 21, rfl⟩
abbrev main_call0_v1 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩

abbrev nD : Nat := 1
abbrev τ : Topo := Topo.v7x

variable {F : FTy → Type} [FloatOps F]

class Facts₀ : Prop where
  bcast_S_S256x50176 : S_.BroadcastsInDim S256x50176 (![] : Fin 0 → Fin S256x50176.rank)
  reducesTo_S256x50176_S50176_d0 : S256x50176.ReducesTo [0] S50176
  h_S_ : 0 < S_.numel
  bcast_S_S50176 : S_.BroadcastsInDim S50176 (![] : Fin 0 → Fin S50176.rank)
  reducesTo_S50176_S_d0 : S50176.ReducesTo [0] S_

variable [Facts₀]

class Facts : Prop extends Facts₀ where

variable [Facts]
-- ==== Proof.Spec.lean ====
/-
  The masked mean-squared error, as one function of the two input arrays.

  Inputs `X` (predictions) and `T` (targets) are `256 × 50176` arrays of extended reals. An entry counts when its
  target is positive: its weight is `1` then and `0` otherwise. For each column `j` take the weighted sum of the
  squared differences `(X - T)²` and the sum of the weights (the count of positive targets); the column's mean is the
  first divided by `max count 1` when the count is positive, and `0` when it is not. The result is the sum of the
  50176 column means divided by 50176. Both programs compute exactly this, so the definitions keep the programs'
  own comparison, conversion and division, and the two constants `1` and `50176` stay the f32 words they are printed as.
-/
import Idealize.ShloMosaic.PureOps.Ideal
import Idealize.ShloMosaic.Lib.ValueIdx

noncomputable section

namespace Cert.MaskedMean

open Idealize.ShloMosaic Idealize.ShloMosaic.ValueIdx

/-- The weight of an entry with target `t`: `1` when `t > 0`, else `0` (the comparison's bit read as a number). -/
def weight (t : EReal) : EReal :=
  FloatOps.uitofp (F := Ideal) .f32 (FloatOps.cmpf (F := Ideal) (φ := .f32) .ogt t 0)

/-- The mean of one column from its entries `x` (predictions) and `t` (targets): the weighted sum of squared
    differences over `max count 1` when the count of positive targets is positive, and `0` otherwise. -/
def colMean {n : ℕ} (x t : Fin n → EReal) : EReal :=
  Scalar.select (FloatOps.cmpf (F := Ideal) (φ := .f32) .ogt (∑ b, weight (t b)) 0)
    (Ideal.div (∑ b, (x b - t b) * (x b - t b) * weight (t b))
      (max (∑ b, weight (t b)) (Ideal.ofBits .f32 0x3F800000#32)))
    0

/-- Column `j`'s mean, from the whole arrays. -/
def colOf (X T : (⟨2, ![256, 50176]⟩ : Shape).Idx → EReal) (j : Fin 50176) : EReal :=
  colMean (fun b : Fin 256 => X (ix2 b j)) (fun b : Fin 256 => T (ix2 b j))

/-- The result from the column means: their sum divided by the word for `50176`. -/
def meanOf (f : Fin 50176 → EReal) : EReal :=
  Ideal.div (∑ j, f j) (Ideal.ofBits .f32 0x47440000#32)

end Cert.MaskedMean

end
-- ==== Proof.LibColumns.lean ====
/-
  Column-by-column readings of two-axis arrays, for any sizes.

  A reduction down the rows of an `n × k` array leaves one number per column: entry `c` of the result is the sum over
  the row coordinate `a` of the array at `(a, c)`. The lemmas below read such a sum at a column, in a kernel's spelling
  (a lane reduction from the zero word) and in the host's (a reduce with an initial value); turn a sum over a one-axis
  index set, or over the index set of a `1 × n` row, into the sum over the coordinate; and say that a one-bit flag
  widened to a 32-bit word and read as a signed integer is the same extended real as the flag read as an unsigned one.
-/
import Idealize.ShloMosaic.Lib.ValueIdx
import Idealize.ShloMosaic.PureOps.Ideal.Laws

noncomputable section

namespace Cert.Lib.Columns

open Idealize.ShloMosaic Idealize.ShloMosaic.ValueIdx

/-! ## Sums down a column -/

/-- The index of an `n × k` array over column `c` with the row `a` put back. -/
theorem lift_col {n k : ℕ} (h : (⟨2, ![n, k]⟩ : Shape).Reduces [0] ⟨1, ![k]⟩) (c : Fin k) (a : Fin n) :
    h.lift (ix1 c) a = ix2 a c := by
  funext ax; apply Fin.ext
  match ax with
  | ⟨0, _⟩ => rfl
  | ⟨1, _⟩ => rfl

/-- A lane reduction of an `n × k` array down its rows reads, at column `c`, the sum of that column. -/
theorem colSum_apply {n k : ℕ} {φ : FTy} (src : FVec Ideal ⟨2, ![n, k]⟩ φ) (acc : BitVec φ.bits)
    (h : (⟨2, ![n, k]⟩ : Shape).Reduces [0] ⟨1, ![k]⟩) (hφ : FKind.Formats φ) (hacc : acc = FKind.add.neutral φ hφ) (c : Fin k) :
    multiReduction .add [0] ⟨1, ![k]⟩ src acc h hφ hacc (ix1 c) = ∑ a : Fin n, src (ix2 a c) := by
  rw [Ideal.multiReduction_add_single]
  exact Finset.sum_congr rfl fun a _ => congrArg src (lift_col h c a)

/-- The same for an f32 lane sum from the zero word, with the accumulator's side condition spelt as a program prints it
    (the word equal to itself). -/
theorem colSum_f32_apply {n k : ℕ} (src : FVec Ideal ⟨2, ![n, k]⟩ .f32)
    (h : (⟨2, ![n, k]⟩ : Shape).Reduces [0] ⟨1, ![k]⟩) (hφ : FKind.Formats .f32)
    (hacc : (0x00000000#32 : BitVec 32) = 0x00000000#32) (c : Fin k) :
    multiReduction .add [0] ⟨1, ![k]⟩ src 0x00000000#32 h hφ hacc (ix1 c) = ∑ a : Fin n, src (ix2 a c) :=
  colSum_apply src 0x00000000#32 h hφ hacc c

/-- The host's sum of an `n × k` array down its rows reads, at column `c`, the initial value plus the sum of that column. -/
theorem hostColSum_apply {n k : ℕ} {φ : FTy} {u : Shape} (x : FVec Ideal ⟨2, ![n, k]⟩ φ) (init : u.Idx → Ideal φ)
    (h' : (⟨2, ![n, k]⟩ : Shape).ReducesTo [0] ⟨1, ![k]⟩) (hu : 0 < u.numel)
    (h : (⟨2, ![n, k]⟩ : Shape).Reduces [0] ⟨1, ![k]⟩) (c : Fin k) :
    Host.reduceAdd x init h' hu (ix1 c) = init (Shape.Idx.first hu) + ∑ a : Fin n, x (ix2 a c) := by
  show Ideal.hostReduceAdd h' x (init (Shape.Idx.first hu)) (ix1 c) = _
  rw [Ideal.hostReduceAdd_single h' h]
  exact congrArg (init (Shape.Idx.first hu) + ·) (Finset.sum_congr rfl fun a _ => congrArg x (lift_col h c a))

/-! ## Sums over the index set of a vector and of a one-row matrix -/

/-- A rank-1 index set is its coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : ℕ} (f : (⟨1, ![n]⟩ : Shape).Idx → A) :
    ∑ i, f i = ∑ a : Fin n, f (ix1 a) := by
  rw [← Equiv.sum_comp (idxEquiv1 (n := n)).symm f]
  rfl

/-- A sum over the index set of a `1 × n` row is the sum over the column coordinate, the row coordinate being `0`. -/
theorem sum_idx_1n {A : Type*} [AddCommMonoid A] {n : ℕ} (f : (⟨2, ![1, n]⟩ : Shape).Idx → A) :
    ∑ i, f i = ∑ c : Fin n, f (ix2 (0 : Fin 1) c) := by
  rw [sum_idx2]
  exact Fin.sum_univ_one _

/-! ## A one-bit flag as a number -/

/-- A one-bit flag widened by zeros to a 32-bit word and read as a signed integer is the flag read as an unsigned one:
    `0` or `1` either way. -/
theorem sitofp_setWidth_bit (b : BitVec 1) :
    FloatOps.sitofp (F := Ideal) .f32 (b.setWidth 32) = FloatOps.uitofp (F := Ideal) .f32 b := by
  have h : (b.setWidth 32).toInt = (b.toNat : ℤ) := by
    rcases BitVec.eq_zero_or_eq_one b with h | h <;> subst h <;> decide
  show (((b.setWidth 32).toInt : ℝ) : EReal) = ((b.toNat : ℝ) : EReal)
  rw [h, Int.cast_natCast]

end Cert.Lib.Columns

end
-- ==== Proof.RefSide.lean ====
/-
  The reference computes the masked mean-squared error of `Spec.lean`.

  The reference forms the squared differences and the weights over the whole `256 × 50176` arrays, sums both down the
  rows (each sum starting from the zero word, which is the extended real `0`), compares, takes the maximum with `1`,
  divides and selects column by column, then sums the 50176 column values and divides by `50176`. Read at column
  `j`, the selected value is `colOf X T j`; the final scalar is `meanOf` of those.
-/
import proofs.«159246_j33208687133246_2_alg».proof.Proof.RefRead
import proofs.«159246_j33208687133246_2_alg».proof.Proof.Spec
import proofs.«159246_j33208687133246_2_alg».proof.Proof.LibColumns

noncomputable section

namespace Cert.MaskedMean.Ref

open Idealize.ShloMosaic Idealize.ShloMosaic.ValueIdx Cert.ReferenceIdeal Cert.ReferenceIdeal.ReadP Cert.MaskedMean

/-- The reference's column values, read at column `j`, are the column means. -/
theorem col_eq (X T : (⟨S256x50176, .f32⟩ : BufTy).Contents (Elt Ideal)) (j : Fin 50176) :
    val_main_v13 (F := Ideal) X T (ix1 j) = colOf X T j := by
  have e6 : ∀ k : Fin 256, idx_main_v6 (ix1 j) k = ix2 k j := fun k =>
    funext fun a => Fin.ext (by match a with | ⟨0, _⟩ => rfl | ⟨1, _⟩ => rfl)
  have e7 : ∀ k : Fin 256, idx_main_v7 (ix1 j) k = ix2 k j := fun k =>
    funext fun a => Fin.ext (by match a with | ⟨0, _⟩ => rfl | ⟨1, _⟩ => rfl)
  simp only [val_main_v13_apply, val_main_v9_apply, val_main_v12_apply, val_main_v11_apply, val_main_v6_apply,
    val_main_v7_apply, val_main_v8_apply, val_main_v10_apply, val_main_call0_v1_apply, val_main_call0_v0_apply,
    val_main_v5_apply, val_main_v4_apply, val_main_v3_apply, val_main_v2_apply, val_main_v1_apply, val_main_v0_apply,
    val_main_cst_apply, val_main_cst_0_apply, val_main_cst_1_apply, val_main_cst_2_apply, val_main_cst_3_apply,
    val_main_cst_4_apply, e6, e7, Ideal.ofBits_def, Ideal.ofBits_zero_f32, zero_add, Ideal.hostDivf_def,
    Ideal.maximumf_def, Ideal.mulf_def, Ideal.subf_def]
  rfl

/-- The reference's result is the mean of the column means. -/
theorem result_eq (X T : (⟨S256x50176, .f32⟩ : BufTy).Contents (Elt Ideal)) :
    val_main_v15 (F := Ideal) X T = fun _ => meanOf (colOf X T) := by
  funext i
  rw [val_main_v15_apply, val_main_v14_apply, Cert.Lib.Columns.sum_idx1]
  simp only [col_eq, val_main_cst_5_apply, val_main_cst_6_apply, Ideal.ofBits_def, Ideal.ofBits_zero_f32, zero_add,
    Ideal.hostDivf_def]
  rfl

end Cert.MaskedMean.Ref

end
-- ==== Proof.KernelBody.lean ====
/-
  One grid step of the kernel computes the column means of its block.

  At a grid step the kernel holds a `256 × 3584` block of predictions and the matching block of targets. It forms the
  squared differences and the weights (the comparison's bit, widened to a word and converted: `0` or `1`), sums both
  down the rows into length-3584 vectors, views each as a `1 × 3584` row, and compares, takes the maximum with `1`,
  divides and selects entry by entry. Read at entry `(0, q)` the stored row is the column mean of `Spec.lean` taken
  over column `q` of the two blocks.
-/
import proofs.«159246_j33208687133246_2_alg».proof.Proof.Gen.KernelIdeal.Skeleton
import proofs.«159246_j33208687133246_2_alg».proof.Proof.Spec
import proofs.«159246_j33208687133246_2_alg».proof.Proof.LibColumns
import Idealize.ShloMosaic.Lib.ValueLayout

noncomputable section

namespace Cert.MaskedMean.Body

open Idealize.ShloMosaic Idealize.ShloMosaic.ValueIdx Cert.KernelIdeal Cert.KernelIdeal.Gen Cert.MaskedMean

/-- The row a grid step stores, at entry `(u, q)`, is the column mean over column `q` of the step's two blocks. -/
theorem pay_apply (x0 x1 : Vec Ideal S256x3584 .f32) (u : Fin 1) (q : Fin 3584) :
    k0_pay1 (F := Ideal) x0 x1 (ix2 u q)
      = colMean (fun b : Fin 256 => x0 (ix2 b q)) (fun b : Fin 256 => x1 (ix2 b q)) := by
  -- a sum down the rows of a block, read at column `q`
  have hw : ∀ v : FVec Ideal S256x3584 .f32,
      multiReduction .add [0] S3584 v 0x00000000#32 reduces_S256x3584_S3584 (.inl rfl) rfl (ix1 q)
        = ∑ a : Fin 256, v (ix2 a q) :=
    fun v => Cert.Lib.Columns.colSum_apply v _ reduces_S256x3584_S3584 _ _ q
  unfold k0_pay1
  simp only [select_apply, cmpf_apply, divf_apply, maximumf_apply, broadcast_apply,
    shapeCast_a_1a_apply, hw, mulf_apply, subf_apply, sitofp_apply, extui_apply,
    Cert.Lib.Columns.sitofp_setWidth_bit, Ideal.ofBits_def, Ideal.ofBits_zero_f32]
  rfl

end Cert.MaskedMean.Body

end
-- ==== Proof.KernelArray.lean ====
/-
  After the kernel's region, its output array is the row of column means.

  The grid has 14 steps. Step `t` reads columns `3584 t … 3584 t + 3583` of both inputs (all 256 rows) and writes
  columns `3584 t … 3584 t + 3583` of the `1 × 50176` output. So entry `(0, j)` of the output is written by step
  `j / 3584` and by no other, and what is written there is the column mean of column `j` of the inputs: the blocks
  are restrictions of one whole-array function, the row `colRow X T`, and together they cover the output.
-/
import proofs.«159246_j33208687133246_2_alg».proof.Proof.Gen.KernelIdeal.Frame
import proofs.«159246_j33208687133246_2_alg».proof.Proof.KernelBody
import Idealize.ShloMosaic.Lib.Pipeline.Value

noncomputable section

namespace Cert.MaskedMean.Array

open Cert.KernelIdeal Cert.KernelIdeal.Gen Idealize.ShloMosaic Idealize.ShloMosaic.TcCoe Idealize.SL.Sem
open Idealize.ShloMosaic.ValueIdx Cert.MaskedMean
open Idealize.ShloMosaic.Pipeline (Dat)

variable (m : (ℓ : Loc nD τ sig) → Buf (Elt Ideal) ℓ)

/-- The row of column means: entry `(0, j)` is column `j`'s mean. -/
def colRow (X T : S256x50176.Idx → EReal) : S1x50176.Idx → EReal := fun i => colOf X T (i 1)

theorem zero_offsets : (![0, 0] : Fin 2 → Nat) = fun _ => 0 := funext fun a => by fin_cases a <;> rfl

/-- Where the three windows sit at step `t`: the inputs at row block `0` and column block `t`, the output at row
    block `0` and column block `t`. -/
theorem blocks_at : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- Entry `(b, q)` of step `t`'s block of the first input is the input at row `b`, column `3584 t + q`. -/
theorem read_block0 (c : Dev nD) (t : Fin cfg0.N) (b : Fin 256) (q : Fin 3584) (jc : Fin 50176)
    (hj : jc.val = t.val * 3584 + q.val) :
    iblk m c 0 t (ix2 b q) = V m c main_arg0 (ix2 b jc) := by
  obtain ⟨e00, e01, -, -, -, -⟩ := blocks_at t
  show V m c main_arg0 (((cfg0.win 0).blk t).view.emb (ix2 b q)) = _
  refine congrArg (V m c main_arg0) (funext fun a => Fin.ext ?_)
  match a with
  | ⟨0, _⟩ => show win0_0.index t (0 : Fin 2) * 256 + 1 * b.val = b.val; omega
  | ⟨1, _⟩ => show win0_0.index t (1 : Fin 2) * 3584 + 1 * q.val = jc.val; omega

/-- The same for the second input. -/
theorem read_block1 (c : Dev nD) (t : Fin cfg0.N) (b : Fin 256) (q : Fin 3584) (jc : Fin 50176)
    (hj : jc.val = t.val * 3584 + q.val) :
    iblk m c 1 t (ix2 b q) = V m c main_arg1 (ix2 b jc) := by
  obtain ⟨-, -, e10, e11, -, -⟩ := blocks_at t
  show V m c main_arg1 (((cfg0.win 1).blk t).view.emb (ix2 b q)) = _
  refine congrArg (V m c main_arg1) (funext fun a => Fin.ext ?_)
  match a with
  | ⟨0, _⟩ => show win0_1.index t (0 : Fin 2) * 256 + 1 * b.val = b.val; omega
  | ⟨1, _⟩ => show win0_1.index t (1 : Fin 2) * 3584 + 1 * q.val = jc.val; omega

/-- A stored row read at `(u, q)` is the mean of column `jc` of the arrays, when column `q` of the two blocks is
    column `jc` of the two arrays. -/
theorem stored_eq (x0 x1 : Vec Ideal S256x3584 .f32) (X T : S256x50176.Idx → EReal) (u : Fin 1) (q : Fin 3584)
    (jc : Fin 50176) (h0 : ∀ b : Fin 256, x0 (ix2 b q) = X (ix2 b jc)) (h1 : ∀ b : Fin 256, x1 (ix2 b q) = T (ix2 b jc)) :
    k0_pay1 (F := Ideal) x0 x1 (ix2 u q) = colOf X T jc := by
  rw [Body.pay_apply]
  unfold colOf
  simp only [h0, h1]

/-- What step `t` writes back is block `t` of the row of column means of the arrays as the region finds them. -/
theorem flushed_eq (c : Dev nD) (t : Fin cfg0.N) :
    (dats m 0 c).flushed 2 t
      = ((cfg0.win 2).blk t).view.read (Elt Ideal) (colRow (V m c main_arg0) (V m c main_arg1)) := by
  show (cfg0.win 2).cut (grid0.coords t) ((dats m 0 c).after 2 t) = _
  rw [after0_2]
  unfold out0_2
  rw [View.canon_unit_zero zero_offsets]
  simp only [View.ld_unit_zero (S := S256x3584) zero_offsets]
  funext j
  obtain ⟨-, -, -, -, -, e21⟩ := blocks_at t
  have hj : ((((cfg0.win 2).blk t).view.emb j) 1).val = t.val * 3584 + (j 1).val := by
    show win0_2.index t (1 : Fin 2) * 3584 + 1 * (j 1).val = _
    omega
  show k0_pay1 (F := Ideal) (iblk m c 0 t) (iblk m c 1 t) j
    = colOf (V m c main_arg0) (V m c main_arg1) ((((cfg0.win 2).blk t).view.emb j) 1)
  exact (congrArg (k0_pay1 (F := Ideal) (iblk m c 0 t) (iblk m c 1 t)) (eq_ix2 j)).trans
    (stored_eq (iblk m c 0 t) (iblk m c 1 t) (V m c main_arg0) (V m c main_arg1) (j 0) (j 1)
      ((((cfg0.win 2).blk t).view.emb j) 1)
      (fun b => read_block0 m c t b (j 1) ((((cfg0.win 2).blk t).view.emb j) 1) hj)
      (fun b => read_block1 m c t b (j 1) ((((cfg0.win 2).blk t).view.emb j) 1) hj))

/-- An index of the output is in step `t`'s block iff each coordinate is in the block's range on its axis. -/
theorem mem_block (t : Fin cfg0.N) (i : S1x50176.Idx) :
    i ∈ ((cfg0.win 2).blk t).view.set ↔ ∀ a : Fin 2, win0_2.index t a * S1x3584.size a ≤ (i a).val ∧ (i a).val < win0_2.index t a * S1x3584.size a + S1x3584.size a := by
  show i ∈ ((View.whole main_call0_v0).slice (win0_2.rect t)).set ↔ _
  rw [View.set_slice_whole, Rect.mem_set_unit]
  exact Iff.rfl

/-- Every entry of the output is in the block of the step its column falls in. -/
theorem covered (i : S1x50176.Idx) :
    ∃ t : Fin cfg0.N, (cfg0.win 2).flush t = true ∧ i ∈ ((cfg0.win 2).blk t).view.set := by
  have hi0 : (i 0).val < 1 := (i 0).isLt
  have hi1 : (i 1).val < 50176 := (i 1).isLt
  have hN : cfg0.N = 14 := N_0
  let t : Fin cfg0.N := ⟨(i 1).val / 3584, by rw [hN]; omega⟩
  obtain ⟨e00, e01, e10, e11, e20, e21⟩ := blocks_at t
  have ht : t.val = (i 1).val / 3584 := rfl
  refine ⟨t, flush0_2 t, ?_⟩
  rw [mem_block]
  intro a
  match a with
  | ⟨0, _⟩ => show win0_2.index t (0 : Fin 2) * 1 ≤ (i 0).val ∧ (i 0).val < win0_2.index t (0 : Fin 2) * 1 + 1; omega
  | ⟨1, _⟩ =>
    show win0_2.index t (1 : Fin 2) * 3584 ≤ (i 1).val ∧ (i 1).val < win0_2.index t (1 : Fin 2) * 3584 + 3584
    omega

/-- The output array after the region is the row of column means of the two arguments. -/
theorem final (c : Dev nD) :
    (dats m 0 c).arrAt 2 cfg0.N
      = colRow (m ((c : Thread nD τ).loc main_arg0)) (m ((c : Thread nD τ).loc main_arg1)) :=
  (dats m 0 c).arrAt_eq_of_cover 2 (colRow (V m c main_arg0) (V m c main_arg1)) (fun t _ => flushed_eq m c t) covered

end Cert.MaskedMean.Array

end
-- ==== Proof.KernelRun.lean ====
/-
  The kernel's program ends with the mean of the column means.

  After the region the program sums the `1 × 50176` output array over both axes, starting from the zero word, and
  divides by the word for `50176`. A sum over the index set of a one-row matrix is the sum over its column coordinate,
  the zero word is the extended real `0`, and the array is the row of column means (`KernelArray.lean`): so the result
  is `meanOf` of the column means of the two arguments, and the arguments are left as they were.
-/
import proofs.«159246_j33208687133246_2_alg».proof.Proof.Gen.KernelIdeal.Frame
import proofs.«159246_j33208687133246_2_alg».proof.Proof.KernelArray
import Idealize.ShloMosaic.Lib.StableHlo.Run

noncomputable section

namespace Cert.MaskedMean.Run

open Cert.KernelIdeal Cert.KernelIdeal.Gen Idealize.ShloMosaic Idealize.ShloMosaic.TcCoe Idealize.SL.Sem
open Idealize.ShloMosaic.ValueIdx Cert.MaskedMean Idealize.ShloMosaic.StableHlo
open Idealize.ShloMosaic.Pipeline (Dat)

variable (m : (ℓ : Loc nD τ sig) → Buf (Elt Ideal) ℓ) (ρ : Dev nD → PrngReg)

/-- The result buffer is none of the pipeline's arrays: the lines after the region decide what it holds. -/
theorem result_rest : main_v0 ∈ Pipeline.restRefs sig spec0 :=
  Pipeline.mem_restRefs_of main_v0 rfl (fun w => by fin_cases w <;> decide)

/-- The two lines after the region, applied to any one-row array `R`: the sum of its entries over `50176`. -/
theorem tail_value (R : (⟨S1x50176, .f32⟩ : BufTy).Contents (Elt Ideal)) :
    Host.divf (F := Ideal) (Host.reduceAdd (F := Ideal) R (constant S_ .f32 0x00000000#32) reducesTo_S1x50176_S_d0_1 h_S_)
        (constant (F := Ideal) S_ .f32 0x47440000#32)
      = fun _ => Ideal.div (∑ j : Fin 50176, R (ix2 (0 : Fin 1) j)) (Ideal.ofBits .f32 0x47440000#32) := by
  funext i
  show Ideal.div (Ideal.hostReduceAdd reducesTo_S1x50176_S_d0_1 R (Ideal.ofBits .f32 0x00000000#32) i)
      (Ideal.ofBits .f32 0x47440000#32) = _
  rw [Ideal.hostReduceAdd_total reducesTo_S1x50176_S_d0_1 (fun b => b.elim0), Cert.Lib.Columns.sum_idx_1n,
    Ideal.ofBits_zero_f32, zero_add]

/-- What the result buffer holds after the lines that follow the region. -/
theorem tail_eq (c : Dev nD) :
    Pipeline.afterTail₀ cfgs (dats m) 0 (V0 m) [hostOps1] c main_v0
      = fun _ => meanOf (colOf (m ((c : Thread nD τ).loc main_arg0)) (m ((c : Thread nD τ).loc main_arg1))) := by
  have hA : Pipeline.withArrays spec0 c (V0 m c) (fun w => (dats m 0 c).arrAt w cfg0.N) (Proc.devRef .tc main_call0_v0)
      = Array.colRow (m ((c : Thread nD τ).loc main_arg0)) (m ((c : Thread nD τ).loc main_arg1)) :=
    (Pipeline.withArrays_arr spec0 launch0.win.arr_inj c _ _ 2).trans (Array.final m c)
  unfold Pipeline.afterTail₀
  show StableHlo.after hostOps1 _ (Proc.devRef .tc main_v0) = _
  after_results
  show Host.divf (F := Ideal) (Host.reduceAdd (F := Ideal)
      (Pipeline.withArrays spec0 c (V0 m c) (fun w => (dats m 0 c).arrAt w cfg0.N) (Proc.devRef .tc main_call0_v0))
      (constant S_ .f32 0x00000000#32) reducesTo_S1x50176_S_d0_1 h_S_) (constant (F := Ideal) S_ .f32 0x47440000#32) = _
  rw [hA, tail_value]
  rfl

/-- Every weakly fair execution of the kernel's program terminates with the result at the mean of the column means of
    the two arguments, and the arguments unchanged. -/
theorem run : θ_run defs (onTc (τ := τ) (main (F := Ideal))) ⟨m, fun _ => 0, ρ⟩ fun r => ∀ c : Dev nD,
      r.2.mem ((c : Thread nD τ).loc main_v0)
        = (fun _ => meanOf (colOf (m ((c : Thread nD τ).loc main_arg0)) (m ((c : Thread nD τ).loc main_arg1))))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v0 result_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.MaskedMean.Run

end
-- ==== Proof.lean ====
/-
  The kernel and its reference compute the same masked mean-squared error.

  Both take predictions `X` and targets `T`, `256 × 50176` arrays, and return one number. An entry counts when its
  target is positive. For each column the weighted sum of squared differences is divided by `max count 1`, where
  `count` is the number of counting entries, and the quotient is kept when `count > 0` and replaced by `0` otherwise;
  the 50176 column values are summed and divided by 50176 (`Proof/Spec.lean`).

  The kernel walks the columns in 14 blocks of 3584, each step writing its block of a `1 × 50176` row of column
  values (`Proof/KernelBody.lean`: one step; `Proof/KernelArray.lean`: the blocks are restrictions of one row and
  cover it), and the program then sums that row and divides (`Proof/KernelRun.lean`). The reference does the same
  over whole arrays (`Proof/RefSide.lean`). On the extended reals the two sides apply the same operations to the same
  entries: they differ only in how the row of column values is laid out (`1 × 50176` against `50176`) and in the
  flag's conversion (a bit widened to a word and read signed, against the bit read unsigned), neither of which changes
  a value. No law that needs finite inputs is used, so the precondition is not opened.

  The three frames: the two kernel programs' by their generated frame proofs, the reference's from its run. The
  idealization rewrote nothing, so `preserves` is trivial.
-/
import proofs.«159246_j33208687133246_2_alg».proof.Defs
import proofs.«159246_j33208687133246_2_alg».proof.Proof.Gen.Kernel
import proofs.«159246_j33208687133246_2_alg».proof.Proof.Gen.Kernel.Frame
import proofs.«159246_j33208687133246_2_alg».proof.Proof.Gen.KernelIdeal
import proofs.«159246_j33208687133246_2_alg».proof.Proof.Gen.KernelIdeal.Frame
import proofs.«159246_j33208687133246_2_alg».proof.Proof.Gen.ReferenceIdeal
import proofs.«159246_j33208687133246_2_alg».proof.Proof.Gen.Pre_finite_inputs
import proofs.«159246_j33208687133246_2_alg».proof.Proof.RefRead
import proofs.«159246_j33208687133246_2_alg».proof.Proof.RefSide
import proofs.«159246_j33208687133246_2_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories that agree on the two arguments, both programs end with the mean of the column means of those
    arguments: the kernel's program by its run, the reference's by its run read as that function. -/
theorem algebraic : Cert.algebraic_KernelIdeal_ReferenceIdeal := by
  intro m ρ m' ρ' _ hagree
  refine ⟨fun c _ => Cert.MaskedMean.meanOf (Cert.MaskedMean.colOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.MaskedMean.Run.run m ρ, ?_⟩
  refine (θ_run Cert.ReferenceIdeal.defs _ _).mono (fun _ h c => ⟨?_, (h c).2⟩)
    (Cert.ReferenceIdeal.ValueP.run (F := Ideal) m' ρ')
  rw [(h c).1, Cert.ReferenceIdeal.ReadP.val_main_v15_eq, Cert.MaskedMean.Ref.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
